-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3x256x128 : Shape := ⟨3, ![3, 256, 128]⟩
abbrev S3x1600000 : Shape := ⟨2, ![3, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3x256x128 : S_.BroadcastsInDim S3x256x128 (![] : Fin 0 → Fin S3x256x128.rank)
  reducesTo_S3x256x128_S_d0_1_2 : S3x256x128.ReducesTo [0, 1, 2] S_
  bcast_S_S3x1600000 : S_.BroadcastsInDim S3x1600000 (![] : Fin 0 → Fin S3x1600000.rank)
  reducesTo_S3x1600000_S_d0_1 : S3x1600000.ReducesTo [0, 1] S_

variable [Facts]

def fn {F : FTy → Type} [FloatOps F] (main_arg0 : FVec F S100000x256 .f32) (main_arg1 : FVec F S3x256x128 .f32) (main_arg2 : IVec S3x1600000 32) (main_arg3 : IVec S3x1600000 32) (main_arg4 : FVec F S3x1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3x256x128 .f32 := Host.absf main_arg1
  let main_cst_0 : FVec F S_ .f32 := constant S_ .f32 0x7F800000#32
  let main_v5 : FVec F S3x256x128 .f32 := broadcastInDim S3x256x128 ![] bcast_S_S3x256x128 main_cst_0
  let main_v6 : IVec S3x256x128 1 := cmpf .olt main_v4 main_v5
  let main_c_1 : IVec S_ 1 := constantI S_ 1 1#1
  let main_v7 : IVec S_ 1 := (fun x v => Host.reduce IntOp.andi x v reducesTo_S3x256x128_S_d0_1_2 h_S_) main_v6 main_c_1
  let main_v8 : IVec S_ 1 := andi main_v3 main_v7
  let main_v9 : FVec F S3x1600000 .f32 := Host.absf main_arg4
  let main_cst_2 : FVec F S_ .f32 := constant S_ .f32 0x7F800000#32
  let main_v10 : FVec F S3x1600000 .f32 := broadcastInDim S3x1600000 ![] bcast_S_S3x1600000 main_cst_2
  let main_v11 : IVec S3x1600000 1 := cmpf .olt main_v9 main_v10
  let main_c_3 : IVec S_ 1 := constantI S_ 1 1#1
  let main_v12 : IVec S_ 1 := (fun x v => Host.reduce IntOp.andi x v reducesTo_S3x1600000_S_d0_1 h_S_) main_v11 main_c_3
  let main_v13 : IVec S_ 1 := andi main_v8 main_v12
  main_v13
-- ==== Kernel.lean ====
abbrev S100000x256 : Shape := ⟨2, ![100000, 256]⟩
abbrev S3x256x128 : Shape := ⟨3, ![3, 256, 128]⟩
abbrev S3x1600000 : Shape := ⟨2, ![3, 1600000]⟩
abbrev S3x100000x128 : Shape := ⟨3, ![3, 100000, 128]⟩
abbrev S4000x256 : Shape := ⟨2, ![4000, 256]⟩
abbrev S1x256x128 : Shape := ⟨3, ![1, 256, 128]⟩
abbrev S1x4000x128 : Shape := ⟨3, ![1, 4000, 128]⟩
abbrev S256x128 : Shape := ⟨2, ![256, 128]⟩
abbrev S4000x128 : Shape := ⟨2, ![4000, 128]⟩
abbrev S_ : Shape := ⟨0, ![]⟩
abbrev S100000x128 : Shape := ⟨2, ![100000, 128]⟩
abbrev S1x1600000 : Shape := ⟨2, ![1, 1600000]⟩
abbrev S1600000 : Shape := ⟨1, ![1600000]⟩
abbrev S1600000x1 : Shape := ⟨2, ![1600000, 1]⟩
abbrev S1x100000x128 : Shape := ⟨3, ![1, 100000, 128]⟩
abbrev S1600000x128 : Shape := ⟨2, ![1600000, 128]⟩

abbrev nBuf : Space → Nat
  | .hbm => 86
  | .vmem => 6
  | .smem => 0
  | _ => 0

abbrev bufTy : (tb : Table) → Fin (tcTables nBuf tb) → BufTy
  | .hbm, ⟨0, _⟩ => ⟨S100000x256, .f32⟩
  | .hbm, ⟨1, _⟩ => ⟨S3x256x128, .f32⟩
  | .hbm, ⟨2, _⟩ => ⟨S3x1600000, .i32⟩
  | .hbm, ⟨3, _⟩ => ⟨S3x1600000, .i32⟩
  | .hbm, ⟨4, _⟩ => ⟨S3x1600000, .f32⟩
  | .hbm, ⟨5, _⟩ => ⟨S3x100000x128, .f32⟩
  | .hbm, ⟨6, _⟩ => ⟨S_, .f32⟩
  | .hbm, ⟨7, _⟩ => ⟨S100000x128, .f32⟩
  | .hbm, ⟨8, _⟩ => ⟨S1x1600000, .f32⟩
  | .hbm, ⟨9, _⟩ => ⟨S1600000, .f32⟩
  | .hbm, ⟨10, _⟩ => ⟨S1600000x1, .f32⟩
  | .hbm, ⟨11, _⟩ => ⟨S1x100000x128, .f32⟩
  | .hbm, ⟨12, _⟩ => ⟨S100000x128, .f32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S1x1600000, .i32⟩
  | .hbm, ⟨27, _⟩ => ⟨S1600000, .i32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S1x1600000, .f32⟩
  | .hbm, ⟨34, _⟩ => ⟨S1600000, .f32⟩
  | .hbm, ⟨35, _⟩ => ⟨S1600000x1, .f32⟩
  | .hbm, ⟨36, _⟩ => ⟨S1x100000x128, .f32⟩
  | .hbm, ⟨37, _⟩ => ⟨S100000x128, .f32⟩
  | .hbm, ⟨38, _⟩ => ⟨S1x1600000, .i32⟩
  | .hbm, ⟨39, _⟩ => ⟨S1600000, .i32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x128, .f32⟩
  | .hbm, ⟨50, _⟩ => ⟨S1600000x128, .f32⟩
  | .hbm, ⟨51, _⟩ => ⟨S1x1600000, .i32⟩
  | .hbm, ⟨52, _⟩ => ⟨S1600000, .i32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S1x1600000, .f32⟩
  | .hbm, ⟨59, _⟩ => ⟨S1600000, .f32⟩
  | .hbm, ⟨60, _⟩ => ⟨S1600000x1, .f32⟩
  | .hbm, ⟨61, _⟩ => ⟨S1x100000x128, .f32⟩
  | .hbm, ⟨62, _⟩ => ⟨S100000x128, .f32⟩
  | .hbm, ⟨63, _⟩ => ⟨S1x1600000, .i32⟩
  | .hbm, ⟨64, _⟩ => ⟨S1600000, .i32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x128, .f32⟩
  | .hbm, ⟨75, _⟩ => ⟨S1600000x128, .f32⟩
  | .hbm, ⟨76, _⟩ => ⟨S1x1600000, .i32⟩
  | .hbm, ⟨77, _⟩ => ⟨S1600000, .i32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S1x256x128, .f32⟩
  | .local _ .vmem, ⟨3, _⟩ => ⟨S1x256x128, .f32⟩
  | .local _ .vmem, ⟨4, _⟩ => ⟨S1x4000x128, .f32⟩
  | .local _ .vmem, ⟨5, _⟩ => ⟨S1x4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_5 : Ref sig .tc := ⟨.hbm, 65, rfl⟩
abbrev main_v53 : Ref sig .tc := ⟨.hbm, 66, rfl⟩
abbrev main_v54 : Ref sig .tc := ⟨.hbm, 67, rfl⟩
abbrev main_c_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call0_cst : Ref sig .tc := ⟨.hbm, 83, rfl⟩
abbrev main_call0_v0 : Ref sig .tc := ⟨.hbm, 84, rfl⟩
abbrev main_v68 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x4000x128_S1x4000x128_0_0_0 : ∀ a, (![0, 0, 0] : Fin 3 → Nat) a + S1x4000x128.size a ≤ S1x4000x128.size a
  h_S1x4000x128 : 0 < S1x4000x128.numel
  shapeCasts_S1x4000x128_S4000x128 : S1x4000x128.ShapeCasts S4000x128
  shapeCasts_S4000x128_S1x4000x128 : S4000x128.ShapeCasts S1x4000x128
  bcast_S_S100000x128 : S_.BroadcastsInDim S100000x128 (![] : Fin 0 → Fin S100000x128.rank)
  slices_S3x1600000_S1x1600000_0_0 : S3x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  slices_S3x100000x128_S1x100000x128_0_0_0 : S3x100000x128.Slices ![0, 0, 0] S1x100000x128
  shapeCasts_S1x100000x128_S100000x128 : S1x100000x128.ShapeCasts S100000x128
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S3x1600000_S1x1600000_1_0 : S3x1600000.Slices ![1, 0] S1x1600000
  slices_S3x100000x128_S1x100000x128_1_0_0 : S3x100000x128.Slices ![1, 0, 0] S1x100000x128
  slices_S3x1600000_S1x1600000_2_0 : S3x1600000.Slices ![2, 0] S1x1600000
  slices_S3x100000x128_S1x100000x128_2_0_0 : S3x100000x128.Slices ![2, 0, 0] S1x100000x128
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S3x256x128.size a
  hwx0_1 : ∀ i : grid0.Coords, EltTy.bits .f32 = 32 ∨ (Rect.block (s := S3x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4000x128.size a ≤ S3x100000x128.size a
  hwx0_2 : ∀ i : grid0.Coords, EltTy.bits .f32 = 32 ∨ (Rect.block (s := S3x100000x128) S1x4000x128.size (cc0_transform_2 i) (hinb0_2 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S3x256x128 : Shape := ⟨3, ![3, 256, 128]⟩
abbrev S3x1600000 : Shape := ⟨2, ![3, 1600000]⟩
abbrev S_ : Shape := ⟨0, ![]⟩
abbrev S100000x128 : Shape := ⟨2, ![100000, 128]⟩
abbrev S1x256x128 : Shape := ⟨3, ![1, 256, 128]⟩
abbrev S256x128 : Shape := ⟨2, ![256, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 88
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3x256x128, .f32⟩
  | .hbm, ⟨2, _⟩ => ⟨S3x1600000, .i32⟩
  | .hbm, ⟨3, _⟩ => ⟨S3x1600000, .i32⟩
  | .hbm, ⟨4, _⟩ => ⟨S3x1600000, .f32⟩
  | .hbm, ⟨5, _⟩ => ⟨S_, .f32⟩
  | .hbm, ⟨6, _⟩ => ⟨S100000x128, .f32⟩
  | .hbm, ⟨7, _⟩ => ⟨S1x256x128, .f32⟩
  | .hbm, ⟨8, _⟩ => ⟨S256x128, .f32⟩
  | .hbm, ⟨9, _⟩ => ⟨S100000x128, .f32⟩
  | .hbm, ⟨10, _⟩ => ⟨S1x1600000, .f32⟩
  | .hbm, ⟨11, _⟩ => ⟨S1600000, .f32⟩
  | .hbm, ⟨12, _⟩ => ⟨S1600000x1, .f32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S1x1600000, .i32⟩
  | .hbm, ⟨27, _⟩ => ⟨S1600000, .i32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S1x256x128, .f32⟩
  | .hbm, ⟨34, _⟩ => ⟨S256x128, .f32⟩
  | .hbm, ⟨35, _⟩ => ⟨S100000x128, .f32⟩
  | .hbm, ⟨36, _⟩ => ⟨S1x1600000, .f32⟩
  | .hbm, ⟨37, _⟩ => ⟨S1600000, .f32⟩
  | .hbm, ⟨38, _⟩ => ⟨S1600000x1, .f32⟩
  | .hbm, ⟨39, _⟩ => ⟨S1x1600000, .i32⟩
  | .hbm, ⟨40, _⟩ => ⟨S1600000, .i32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S1x1600000, .i32⟩
  | .hbm, ⟨53, _⟩ => ⟨S1600000, .i32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S1x256x128, .f32⟩
  | .hbm, ⟨60, _⟩ => ⟨S256x128, .f32⟩
  | .hbm, ⟨61, _⟩ => ⟨S100000x128, .f32⟩
  | .hbm, ⟨62, _⟩ => ⟨S1x1600000, .f32⟩
  | .hbm, ⟨63, _⟩ => ⟨S1600000, .f32⟩
  | .hbm, ⟨64, _⟩ => ⟨S1600000x1, .f32⟩
  | .hbm, ⟨65, _⟩ => ⟨S1x1600000, .i32⟩
  | .hbm, ⟨66, _⟩ => ⟨S1600000, .i32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x128, .f32⟩
  | .hbm, ⟨77, _⟩ => ⟨S1600000x128, .f32⟩
  | .hbm, ⟨78, _⟩ => ⟨S1x1600000, .i32⟩
  | .hbm, ⟨79, _⟩ => ⟨S1600000, .i32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_5 : Ref sig .tc := ⟨.hbm, 67, rfl⟩
abbrev main_v55 : Ref sig .tc := ⟨.hbm, 68, rfl⟩
abbrev main_v56 : Ref sig .tc := ⟨.hbm, 69, rfl⟩
abbrev main_c_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_call0_cst : Ref sig .tc := ⟨.hbm, 85, rfl⟩
abbrev main_call0_v0 : Ref sig .tc := ⟨.hbm, 86, rfl⟩
abbrev main_v70 : Ref sig .tc := ⟨.hbm, 87, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S3x256x128_S1x256x128_0_0_0 : S3x256x128.Slices ![0, 0, 0] S1x256x128
  shapeCasts_S1x256x128_S256x128 : S1x256x128.ShapeCasts S256x128
  slices_S3x1600000_S1x1600000_0_0 : S3x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S3x256x128_S1x256x128_1_0_0 : S3x256x128.Slices ![1, 0, 0] S1x256x128
  slices_S3x1600000_S1x1600000_1_0 : S3x1600000.Slices ![1, 0] S1x1600000
  slices_S3x256x128_S1x256x128_2_0_0 : S3x256x128.Slices ![2, 0, 0] S1x256x128
  slices_S3x1600000_S1x1600000_2_0 : S3x1600000.Slices ![2, 0] S1x1600000
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KBitsLines.lean ====
/-
  The host lines that follow the region.

  @main is one launch of the projection kernel followed by eighty host operations: seventy-seven of @main itself
  (per hop: the slices of the edge tables and of the kernel's result, the index fix-up, the gather, the scaling, the
  scatter-add, the running sum) and the three of the final max-with-zero. Each of them writes exactly one buffer,
  and that buffer is neither an argument of @main nor the kernel's result; none allocates anything; all touch only
  buffers of the device that outlive the region. These are the facts the launch theorem for "a region continued by
  host lines" asks for, and they are what makes the arguments end unchanged.
-/
import proofs.«105398_j601295422043_1_alg».proof.Proof.Gen.Kernel.Launch
import Idealize.ShloMosaic.Lib.Pipeline.FrameSuffix

set_option maxRecDepth 16384

noncomputable section

namespace Cert.Kernel.Lines

open Cert.Kernel Cert.Kernel.Gen
open Idealize.ShloMosaic Idealize.ShloMosaic.TcCoe
open Idealize.SL Idealize.SL.Sem

variable {F : FTy → Type} [FloatOps F]

/-- The eighty buffers the lines after the region write, one per line: every buffer of @main other than its five
    arguments and the kernel's result. -/
def written : List (Ref sig .tc) :=
  [
    main_cst, main_v1, main_v2, main_v3, main_v4, main_v5, main_v6, main_v7,
    main_v8, main_c, main_v9, main_v10, main_c_0, main_v11, main_v12, main_v13,
    main_v14, main_v15, main_v16, main_v17, main_v18, main_v19, main_cst_1, main_v20,
    main_v21, main_v22, main_v23, main_v24, main_v25, main_v26, main_v27, main_v28,
    main_v29, main_v30, main_c_2, main_v31, main_v32, main_c_3, main_v33, main_v34,
    main_v35, main_v36, main_v37, main_v38, main_v39, main_v40, main_v41, main_cst_4,
    main_v42, main_v43, main_v44, main_v45, main_v46, main_v47, main_v48, main_v49,
    main_v50, main_v51, main_v52, main_c_5, main_v53, main_v54, main_c_6, main_v55,
    main_v56, main_v57, main_v58, main_v59, main_v60, main_v61, main_v62, main_v63,
    main_cst_7, main_v64, main_v65, main_v66, main_v67, main_call0_cst, main_call0_v0, main_v68 ]

/-- The two stretches of lines after the region: @main's own, then the final max-with-zero. -/
abbrev tail : List (List (HloOp τ sig (Elt F))) := [hostOps1, hostOps1_1]

set_option maxHeartbeats 4000000 in
/-- Every line of @main's own stretch writes one of the listed buffers. -/
theorem own_writes : (hostOps1 : List (HloOp τ sig (Elt F))).Forall fun op =>
    op.writes ⊆ (written.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- So does every line of the final max-with-zero. -/
theorem relu_writes : (hostOps1_1 : List (HloOp τ sig (Elt F))).Forall fun op =>
    op.writes ⊆ (written.map (Proc.devRef (τ := τ) .tc)).toFinset := by
  simp only [List.Forall, StableHlo.nullary_writes, StableHlo.unary_writes, StableHlo.binary_writes,
    Finset.singleton_subset_iff, List.mem_toFinset]
  repeat' apply And.intro
  all_goals exact List.mem_map_of_mem (by decide)

/-- A buffer outside the list is written by no line after the region. -/
theorem untouched {r : Ref sig .tc} (hr : r ∉ written) :
    ∀ ops ∈ (tail : List (List (HloOp τ sig (Elt F)))), ∀ op ∈ ops, Proc.devRef (τ := τ) .tc r ∉ op.writes := by
  intro ops hops op hop hb
  simp only [List.mem_cons, List.mem_nil_iff, or_false] at hops
  have hsub : op.writes ⊆ (written.map (Proc.devRef (τ := τ) .tc)).toFinset := by
    rcases hops with rfl | rfl
    · exact (List.forall_iff_forall_mem.mp own_writes) op hop
    · exact (List.forall_iff_forall_mem.mp relu_writes) op hop
  obtain ⟨y, hy, he⟩ := List.mem_map.mp (List.mem_toFinset.mp (hsub hb))
  exact hr (Proc.devRef_injective _ he ▸ hy)

/-- The same over the two stretches laid end to end. -/
theorem untouched_flat {r : Ref sig .tc} (hr : r ∉ written) :
    ∀ op ∈ (tail : List (List (HloOp τ sig (Elt F)))).flatten, Proc.devRef (τ := τ) .tc r ∉ op.writes := by
  intro op hop
  obtain ⟨ops, hops, hin⟩ := List.mem_flatten.mp hop
  exact untouched hr ops hops op hin

/-- The three arrays the kernel's windows stage (the node features, the weights, the kernel's result) are outside
    the list: no line after the region writes an array of the pipeline. -/
theorem arrays_kept : ∀ ops ∈ (tail : List (List (HloOp τ sig (Elt F)))), ∀ op ∈ ops,
    ∀ w, Proc.devRef (τ := τ) .tc (Pipeline.arrRef spec0 w) ∉ op.writes := by
  intro ops hops op hop w
  refine untouched ?_ ops hops op hop
  fin_cases w <;> decide

/-- No line after the region allocates. -/
theorem own_fresh : (hostOps1 : List (HloOp τ sig (Elt F))).Forall fun op => op.fresh = ∅ := by
  simp only [List.Forall]; repeat' constructor
theorem relu_fresh : (hostOps1_1 : List (HloOp τ sig (Elt F))).Forall fun op => op.fresh = ∅ := by
  simp only [List.Forall]; repeat' constructor

theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp own_fresh) op hop
  · exact (List.forall_iff_forall_mem.mp relu_fresh) op hop

/-- Every line touches only buffers that outlive the region: with nothing prefetched, those are the pipeline's
    arrays and the buffers that bypass it. -/
theorem tail_within : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

variable (m : (ℓ : Loc nD τ sig) → Buf (Elt F) ℓ)

/-- Core `c`'s buffers as the region finds them: no host line precedes the launch, so they are the launch contents. -/
abbrev V0 (c : Dev nD) : Valuation τ sig (Elt F) := StableHlo.after (List.flatten []) (fun b => m (c, b))
/-- The same read at a reference of the core. -/
abbrev V (c : Dev nD) (b : Ref sig .tc) : Buf (Elt F) ((c : Thread nD τ).loc b) := V0 m c (Proc.devRef .tc b)

/-- @main is the region continued by the two stretches of lines. -/
theorem main_around (𝒱₀ : Variants) :
    Pipeline.HMainK (Ix := Unit) (Name := ℕ) (U := UR sig nD τ) (Lvl := ℕ) cfgs 0 defs₀ 𝒱₀ m (main (F := F)) (V m)
      (fun _ => Pipeline.chain ((tail : List (List (HloOp τ sig (Elt F)))).map StableHlo.seq)) :=
  Pipeline.hmain_around cfgs 0 defs₀ 𝒱₀ m main [] tail (by simp only [List.Forall]) (by simp only [List.Forall]) main_chain

end Cert.Kernel.Lines

end
-- ==== Proof.KBitsBody.lean ====
/-
  One grid point of the projection kernel.

  The grid is 25 row tiles by 3 hops. At a point the body loads the whole 4000 x 256 tile of node features and the
  whole 256 x 128 weight matrix of the hop, multiplies them on the matrix unit into a zero accumulator, and stores
  the 4000 x 128 product over the whole of the result's staging buffer (it also loads that buffer first, a value it
  never uses, so the buffer may hold anything when the body starts). So after the body the two input buffers hold
  what they held and the result's buffer holds one function `stored` of the two input blocks. The proof data of the
  pipeline says exactly that at every point, and the per-point obligation of the launch theorem follows.
-/
import proofs.«105398_j601295422043_1_alg».proof.Proof.Gen.Kernel.Launch
import proofs.«105398_j601295422043_1_alg».proof.Proof.Gen.Kernel.Skeleton
import proofs.«105398_j601295422043_1_alg».proof.Proof.Gen.Kernel.Points
import proofs.«105398_j601295422043_1_alg».proof.Proof.KBitsLines
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen Cert.Kernel.Lines
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The blocks -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole of a feature tile, of a weight matrix, of a result tile, as rectangles. -/
abbrev tileX : Rect S4000x256 := Rect.unit (s := S4000x256) ![0, 0] S4000x256.size inb_S4000x256_S4000x256_0_0
abbrev tileW : Rect S1x256x128 := Rect.unit (s := S1x256x128) ![0, 0, 0] S1x256x128.size inb_S1x256x128_S1x256x128_0_0_0
abbrev tileY : Rect S1x4000x128 := Rect.unit (s := S1x4000x128) ![0, 0, 0] S1x4000x128.size inb_S1x4000x128_S1x4000x128_0_0_0

/-- What the body leaves in the result's staging buffer, from the two input blocks: its one store, over the whole
    buffer, of the product computed from the two loaded tiles. -/
def stored (x : Vec F S4000x256 .f32) (w : Vec F S1x256x128 .f32) : Vec F S1x4000x128 .f32 :=
  View.canon [⟨tileY, k0_pay1 (View.ld x tileX) (View.ld w tileW)⟩]

/-- The one store covers the buffer. -/
theorem store_covers (p : Vec F S1x4000x128 .f32) (y : S1x4000x128.Idx) :
    ∃ pc ∈ ([⟨tileY, p⟩] : List (View.Piece (Elt F) S1x4000x128 .f32)), y ∈ pc.1.set :=
  View.cover_of_tiled [⟨tileY, p⟩] S1x4000x128.size (by rfl) y

/-! ## The body's triple -/

set_option maxHeartbeats 4000000 in
/-- The body on whole staging memrefs — the two inputs' at contents `x` and `w`, the result's at anything — runs to
    its continuation with the inputs' as they were and the result's at `stored x w`. -/
theorem body_triple (c : Dev nD) (E : Set ℕ) (i : grid0.Coords)
    (arg2 : Memref sig .tc .vmem S4000x256 .f32) (harg2 : arg2.IsWhole)
    (arg3 : Memref sig .tc .vmem S1x256x128 .f32) (harg3 : arg3.IsWhole)
    (arg4 : Memref sig .tc .vmem S1x4000x128 .f32) (harg4 : arg4.IsWhole)
    (x : Vec F S4000x256 .f32) (w : Vec F S1x256x128 .f32) (K : PUnit → sProp 𝕄) :
    iprop(owns (c : Thread nD τ) arg2 fullShare x ∗ owns (c : Thread nD τ) arg3 fullShare w
        ∗ (∃ d, owns (c : Thread nD τ) arg4 fullShare d)
        ∗ (iprop(owns (c : Thread nD τ) arg2 fullShare x ∗ owns (c : Thread nD τ) arg3 fullShare w
            ∗ owns (c : Thread nD τ) arg4 fullShare (stored x w)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data -/

/-- The pipeline's proof data on core `c`: the arrays as the region finds them; after the body at point `t` each
    input's buffer at its block and the result's at `stored` of the two blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_x (c : Dev nD) (t : Fin cfg0.N) : (dats m 0 c).after 0 t = blockAt m c 0 t := by dsimp only [dats]
theorem after_w (c : Dev nD) (t : Fin cfg0.N) : (dats m 0 c).after 1 t = blockAt m c 1 t := by dsimp only [dats]
theorem after_y (c : Dev nD) (t : Fin cfg0.N) :
    (dats m 0 c).after 2 t = stored (blockAt m c 0 t) (blockAt m c 1 t) := by dsimp only [dats]

/-- The feature tile's staging buffer holds its block at every point, fetched there or not (it is fetched once per
    row tile and serves the three hops). -/
theorem before_x (c : Dev nD) (t : Fin cfg0.N) (d) : (dats m 0 c).before 0 t d = blockAt m c 0 t :=
  ((dats m 0 c).before_in_eq_fetched 0 rfl (fun _ => rfl) (fun _ _ _ => rfl)
      (fun t => by rw [after_x]; unfold Dat.blockOf blockAt; rw [arrays_eq]; try rfl) t d).trans
    (by unfold Dat.fetched Dat.blockOf blockAt; rw [arrays_eq]; try rfl)

/-- So does the weight matrix's. -/
theorem before_w (c : Dev nD) (t : Fin cfg0.N) (d) : (dats m 0 c).before 1 t d = blockAt m c 1 t :=
  ((dats m 0 c).before_in_eq_fetched 1 rfl (fun _ => rfl) (fun _ _ _ => rfl)
      (fun t => by rw [after_w]; unfold Dat.blockOf blockAt; rw [arrays_eq]; try rfl) t d).trans
    (by unfold Dat.fetched Dat.blockOf blockAt; rw [arrays_eq]; try rfl)

/-! ## The obligation at a point -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_y]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation on the body, at every point. -/
theorem body_obligation (c : Dev nD) :
    BodyObligation (dats (F := F) m 0 c) (defs₀ (F := F)) Variants.none () Set.univ := fun t => by
  rw [bigSep_W0, bigSep_W0]
  exact point_sound m c t

end Cert.Kernel.Body

end
-- ==== Proof.KBitsRun.lean ====
/-
  The whole run of @main: the launch, then the lines after it.

  With the facts about the lines and the per-point obligation of the body, the launch theorem for a region continued
  by host lines gives: every weakly fair execution terminates without a fault; the three arrays the windows stage
  end at what the proof data computes for them (an input array: what it held; the kernel's result: the stored tiles
  written back); every other buffer of the device ends at what the lines compute from the region's exit. No line
  writes an argument, so the five arguments end as launched.
-/
import proofs.«105398_j601295422043_1_alg».proof.Proof.KBitsBody

set_option maxRecDepth 16384

noncomputable section

namespace Cert.Kernel.Run

open Cert.Kernel Cert.Kernel.Gen Cert.Kernel.Lines Cert.Kernel.Body
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

set_option backward.isDefEq.respectTransparency.types false in
/-- The run: the pipeline's arrays at the proof data's final contents, every other buffer at what the lines after
    the region leave. -/
theorem run_around : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_within) (hfresh := tail_fresh)
    (hkeep := arrays_kept) (hmain := main_around m Variants.none) (hA := arrays_eq m) (hΦ := fun _ _ => rfl)

/-- A buffer that no window stages and no line writes ends as launched. -/
theorem kept (c : Dev nD) {r : Ref sig .tc} (hr : r ∉ written) (hw : ∀ w, Pipeline.arrRef spec0 w ≠ r) :
    Pipeline.afterTail₀ cfgs (dats m) 0 (V0 m) tail c r = m ((c : Thread nD τ).loc r) := by
  unfold Pipeline.afterTail₀
  rw [StableHlo.after_of_forall_not_mem (b := Proc.devRef .tc r) _ _ (untouched_flat hr),
    Pipeline.withArrays_of_ne _ c (V0 m c) _ r hw]
  rfl

/-- The five arguments end as launched: the node features and the weights are input arrays of the pipeline, the
    three edge tables bypass it and no line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((arrays_eq m c 0).trans rfl)),
     ((h c).1 1).trans (((dats m 0 c).arrAt_in 1 rfl _).trans ((arrays_eq m c 1).trans rfl)),
     ((h c).2 main_arg2 (Pipeline.mem_restRefs_of main_arg2 (by decide) (by decide))).trans
       (kept m c (by decide) (by decide)),
     ((h c).2 main_arg3 (Pipeline.mem_restRefs_of main_arg3 (by decide) (by decide))).trans
       (kept m c (by decide) (by decide)),
     ((h c).2 main_arg4 (Pipeline.mem_restRefs_of main_arg4 (by decide) (by decide))).trans
       (kept m c (by decide) (by decide))⟩) (run_around m ρ)

end Cert.Kernel.Run

end
-- ==== Proof.KIdealLines.lean ====
/-
  The host lines that follow the region.

  @main is one launch of the projection kernel followed by eighty host operations: seventy-seven of @main itself
  (per hop: the slices of the edge tables and of the kernel's result, the index fix-up, the gather, the scaling, the
  scatter-add, the running sum) and the three of the final max-with-zero. Each of them writes exactly one buffer,
  and that buffer is neither an argument of @main nor the kernel's result; none allocates anything; all touch only
  buffers of the device that outlive the region. These are the facts the launch theorem for "a region continued by
  host lines" asks for, and they are what makes the arguments end unchanged.
-/
import proofs.«105398_j601295422043_1_alg».proof.Proof.Gen.KernelIdeal.Launch
import Idealize.ShloMosaic.Lib.Pipeline.FrameSuffix

set_option maxRecDepth 16384

noncomputable section

namespace Cert.KernelIdeal.Lines

open Cert.KernelIdeal Cert.KernelIdeal.Gen
open Idealize.ShloMosaic Idealize.ShloMosaic.TcCoe
open Idealize.SL Idealize.SL.Sem

variable {F : FTy → Type} [FloatOps F]

/-- The eighty buffers the lines after the region write, one per line: every buffer of @main other than its five
    arguments and the kernel's result. -/
def written : List (Ref sig .tc) :=
  [
    main_cst, main_v1, main_v2, main_v3, main_v4, main_v5, main_v6, main_v7,
    main_v8, main_c, main_v9, main_v10, main_c_0, main_v11, main_v12, main_v13,
    main_v14, main_v15, main_v16, main_v17, main_v18, main_v19, main_cst_1, main_v20,
    main_v21, main_v22, main_v23, main_v24, main_v25, main_v26, main_v27, main_v28,
    main_v29, main_v30, main_c_2, main_v31, main_v32, main_c_3, main_v33, main_v34,
    main_v35, main_v36, main_v37, main_v38, main_v39, main_v40, main_v41, main_cst_4,
    main_v42, main_v43, main_v44, main_v45, main_v46, main_v47, main_v48, main_v49,
    main_v50, main_v51, main_v52, main_c_5, main_v53, main_v54, main_c_6, main_v55,
    main_v56, main_v57, main_v58, main_v59, main_v60, main_v61, main_v62, main_v63,
    main_cst_7, main_v64, main_v65, main_v66, main_v67, main_call0_cst, main_call0_v0, main_v68 ]

/-- The two stretches of lines after the region: @main's own, then the final max-with-zero. -/
abbrev tail : List (List (HloOp τ sig (Elt F))) := [hostOps1, hostOps1_1]

set_option maxHeartbeats 4000000 in
/-- Every line of @main's own stretch writes one of the listed buffers. -/
theorem own_writes : (hostOps1 : List (HloOp τ sig (Elt F))).Forall fun op =>
    op.writes ⊆ (written.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- So does every line of the final max-with-zero. -/
theorem relu_writes : (hostOps1_1 : List (HloOp τ sig (Elt F))).Forall fun op =>
    op.writes ⊆ (written.map (Proc.devRef (τ := τ) .tc)).toFinset := by
  simp only [List.Forall, StableHlo.nullary_writes, StableHlo.unary_writes, StableHlo.binary_writes,
    Finset.singleton_subset_iff, List.mem_toFinset]
  repeat' apply And.intro
  all_goals exact List.mem_map_of_mem (by decide)

/-- A buffer outside the list is written by no line after the region. -/
theorem untouched {r : Ref sig .tc} (hr : r ∉ written) :
    ∀ ops ∈ (tail : List (List (HloOp τ sig (Elt F)))), ∀ op ∈ ops, Proc.devRef (τ := τ) .tc r ∉ op.writes := by
  intro ops hops op hop hb
  simp only [List.mem_cons, List.mem_nil_iff, or_false] at hops
  have hsub : op.writes ⊆ (written.map (Proc.devRef (τ := τ) .tc)).toFinset := by
    rcases hops with rfl | rfl
    · exact (List.forall_iff_forall_mem.mp own_writes) op hop
    · exact (List.forall_iff_forall_mem.mp relu_writes) op hop
  obtain ⟨y, hy, he⟩ := List.mem_map.mp (List.mem_toFinset.mp (hsub hb))
  exact hr (Proc.devRef_injective _ he ▸ hy)

/-- The same over the two stretches laid end to end. -/
theorem untouched_flat {r : Ref sig .tc} (hr : r ∉ written) :
    ∀ op ∈ (tail : List (List (HloOp τ sig (Elt F)))).flatten, Proc.devRef (τ := τ) .tc r ∉ op.writes := by
  intro op hop
  obtain ⟨ops, hops, hin⟩ := List.mem_flatten.mp hop
  exact untouched hr ops hops op hin

/-- The three arrays the kernel's windows stage (the node features, the weights, the kernel's result) are outside
    the list: no line after the region writes an array of the pipeline. -/
theorem arrays_kept : ∀ ops ∈ (tail : List (List (HloOp τ sig (Elt F)))), ∀ op ∈ ops,
    ∀ w, Proc.devRef (τ := τ) .tc (Pipeline.arrRef spec0 w) ∉ op.writes := by
  intro ops hops op hop w
  refine untouched ?_ ops hops op hop
  fin_cases w <;> decide

/-- No line after the region allocates. -/
theorem own_fresh : (hostOps1 : List (HloOp τ sig (Elt F))).Forall fun op => op.fresh = ∅ := by
  simp only [List.Forall]; repeat' constructor
theorem relu_fresh : (hostOps1_1 : List (HloOp τ sig (Elt F))).Forall fun op => op.fresh = ∅ := by
  simp only [List.Forall]; repeat' constructor

theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp own_fresh) op hop
  · exact (List.forall_iff_forall_mem.mp relu_fresh) op hop

/-- Every line touches only buffers that outlive the region: with nothing prefetched, those are the pipeline's
    arrays and the buffers that bypass it. -/
theorem tail_within : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

variable (m : (ℓ : Loc nD τ sig) → Buf (Elt F) ℓ)

/-- Core `c`'s buffers as the region finds them: no host line precedes the launch, so they are the launch contents. -/
abbrev V0 (c : Dev nD) : Valuation τ sig (Elt F) := StableHlo.after (List.flatten []) (fun b => m (c, b))
/-- The same read at a reference of the core. -/
abbrev V (c : Dev nD) (b : Ref sig .tc) : Buf (Elt F) ((c : Thread nD τ).loc b) := V0 m c (Proc.devRef .tc b)

/-- @main is the region continued by the two stretches of lines. -/
theorem main_around (𝒱₀ : Variants) :
    Pipeline.HMainK (Ix := Unit) (Name := ℕ) (U := UR sig nD τ) (Lvl := ℕ) cfgs 0 defs₀ 𝒱₀ m (main (F := F)) (V m)
      (fun _ => Pipeline.chain ((tail : List (List (HloOp τ sig (Elt F)))).map StableHlo.seq)) :=
  Pipeline.hmain_around cfgs 0 defs₀ 𝒱₀ m main [] tail (by simp only [List.Forall]) (by simp only [List.Forall]) main_chain

end Cert.KernelIdeal.Lines

end
-- ==== Proof.KIdealBody.lean ====
/-
  One grid point of the projection kernel.

  The grid is 25 row tiles by 3 hops. At a point the body loads the whole 4000 x 256 tile of node features and the
  whole 256 x 128 weight matrix of the hop, multiplies them on the matrix unit into a zero accumulator, and stores
  the 4000 x 128 product over the whole of the result's staging buffer (it also loads that buffer first, a value it
  never uses, so the buffer may hold anything when the body starts). So after the body the two input buffers hold
  what they held and the result's buffer holds one function `stored` of the two input blocks. The proof data of the
  pipeline says exactly that at every point, and the per-point obligation of the launch theorem follows.
-/
import proofs.«105398_j601295422043_1_alg».proof.Proof.Gen.KernelIdeal.Launch
import proofs.«105398_j601295422043_1_alg».proof.Proof.Gen.KernelIdeal.Skeleton
import proofs.«105398_j601295422043_1_alg».proof.Proof.Gen.KernelIdeal.Points
import proofs.«105398_j601295422043_1_alg».proof.Proof.KIdealLines
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen Cert.KernelIdeal.Lines
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The blocks -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole of a feature tile, of a weight matrix, of a result tile, as rectangles. -/
abbrev tileX : Rect S4000x256 := Rect.unit (s := S4000x256) ![0, 0] S4000x256.size inb_S4000x256_S4000x256_0_0
abbrev tileW : Rect S1x256x128 := Rect.unit (s := S1x256x128) ![0, 0, 0] S1x256x128.size inb_S1x256x128_S1x256x128_0_0_0
abbrev tileY : Rect S1x4000x128 := Rect.unit (s := S1x4000x128) ![0, 0, 0] S1x4000x128.size inb_S1x4000x128_S1x4000x128_0_0_0

/-- What the body leaves in the result's staging buffer, from the two input blocks: its one store, over the whole
    buffer, of the product computed from the two loaded tiles. -/
def stored (x : Vec F S4000x256 .f32) (w : Vec F S1x256x128 .f32) : Vec F S1x4000x128 .f32 :=
  View.canon [⟨tileY, k0_pay1 (View.ld x tileX) (View.ld w tileW)⟩]

/-- The one store covers the buffer. -/
theorem store_covers (p : Vec F S1x4000x128 .f32) (y : S1x4000x128.Idx) :
    ∃ pc ∈ ([⟨tileY, p⟩] : List (View.Piece (Elt F) S1x4000x128 .f32)), y ∈ pc.1.set :=
  View.cover_of_tiled [⟨tileY, p⟩] S1x4000x128.size (by rfl) y

/-! ## The body's triple -/

set_option maxHeartbeats 4000000 in
/-- The body on whole staging memrefs — the two inputs' at contents `x` and `w`, the result's at anything — runs to
    its continuation with the inputs' as they were and the result's at `stored x w`. -/
theorem body_triple (c : Dev nD) (E : Set ℕ) (i : grid0.Coords)
    (arg2 : Memref sig .tc .vmem S4000x256 .f32) (harg2 : arg2.IsWhole)
    (arg3 : Memref sig .tc .vmem S1x256x128 .f32) (harg3 : arg3.IsWhole)
    (arg4 : Memref sig .tc .vmem S1x4000x128 .f32) (harg4 : arg4.IsWhole)
    (x : Vec F S4000x256 .f32) (w : Vec F S1x256x128 .f32) (K : PUnit → sProp 𝕄) :
    iprop(owns (c : Thread nD τ) arg2 fullShare x ∗ owns (c : Thread nD τ) arg3 fullShare w
        ∗ (∃ d, owns (c : Thread nD τ) arg4 fullShare d)
        ∗ (iprop(owns (c : Thread nD τ) arg2 fullShare x ∗ owns (c : Thread nD τ) arg3 fullShare w
            ∗ owns (c : Thread nD τ) arg4 fullShare (stored x w)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data -/

/-- The pipeline's proof data on core `c`: the arrays as the region finds them; after the body at point `t` each
    input's buffer at its block and the result's at `stored` of the two blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_x (c : Dev nD) (t : Fin cfg0.N) : (dats m 0 c).after 0 t = blockAt m c 0 t := by dsimp only [dats]
theorem after_w (c : Dev nD) (t : Fin cfg0.N) : (dats m 0 c).after 1 t = blockAt m c 1 t := by dsimp only [dats]
theorem after_y (c : Dev nD) (t : Fin cfg0.N) :
    (dats m 0 c).after 2 t = stored (blockAt m c 0 t) (blockAt m c 1 t) := by dsimp only [dats]

/-- The feature tile's staging buffer holds its block at every point, fetched there or not (it is fetched once per
    row tile and serves the three hops). -/
theorem before_x (c : Dev nD) (t : Fin cfg0.N) (d) : (dats m 0 c).before 0 t d = blockAt m c 0 t :=
  ((dats m 0 c).before_in_eq_fetched 0 rfl (fun _ => rfl) (fun _ _ _ => rfl)
      (fun t => by rw [after_x]; unfold Dat.blockOf blockAt; rw [arrays_eq]; try rfl) t d).trans
    (by unfold Dat.fetched Dat.blockOf blockAt; rw [arrays_eq]; try rfl)

/-- So does the weight matrix's. -/
theorem before_w (c : Dev nD) (t : Fin cfg0.N) (d) : (dats m 0 c).before 1 t d = blockAt m c 1 t :=
  ((dats m 0 c).before_in_eq_fetched 1 rfl (fun _ => rfl) (fun _ _ _ => rfl)
      (fun t => by rw [after_w]; unfold Dat.blockOf blockAt; rw [arrays_eq]; try rfl) t d).trans
    (by unfold Dat.fetched Dat.blockOf blockAt; rw [arrays_eq]; try rfl)

/-! ## The obligation at a point -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_y]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation on the body, at every point. -/
theorem body_obligation (c : Dev nD) :
    BodyObligation (dats (F := F) m 0 c) (defs₀ (F := F)) Variants.none () Set.univ := fun t => by
  rw [bigSep_W0, bigSep_W0]
  exact point_sound m c t

end Cert.KernelIdeal.Body

end
-- ==== Proof.KIdealRun.lean ====
/-
  The whole run of @main: the launch, then the lines after it.

  With the facts about the lines and the per-point obligation of the body, the launch theorem for a region continued
  by host lines gives: every weakly fair execution terminates without a fault; the three arrays the windows stage
  end at what the proof data computes for them (an input array: what it held; the kernel's result: the stored tiles
  written back); every other buffer of the device ends at what the lines compute from the region's exit. No line
  writes an argument, so the five arguments end as launched.
-/
import proofs.«105398_j601295422043_1_alg».proof.Proof.KIdealBody

set_option maxRecDepth 16384

noncomputable section

namespace Cert.KernelIdeal.Run

open Cert.KernelIdeal Cert.KernelIdeal.Gen Cert.KernelIdeal.Lines Cert.KernelIdeal.Body
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

set_option backward.isDefEq.respectTransparency.types false in
/-- The run: the pipeline's arrays at the proof data's final contents, every other buffer at what the lines after
    the region leave. -/
theorem run_around : θ_run defs (onTc (τ := τ) (main (F := F))) (s₀ m ρ)
    (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_within) (hfresh := tail_fresh)
    (hkeep := arrays_kept) (hmain := main_around m Variants.none) (hA := arrays_eq m) (hΦ := fun _ _ => rfl)

/-- A buffer that no window stages and no line writes ends as launched. -/
theorem kept (c : Dev nD) {r : Ref sig .tc} (hr : r ∉ written) (hw : ∀ w, Pipeline.arrRef spec0 w ≠ r) :
    Pipeline.afterTail₀ cfgs (dats m) 0 (V0 m) tail c r = m ((c : Thread nD τ).loc r) := by
  unfold Pipeline.afterTail₀
  rw [StableHlo.after_of_forall_not_mem (b := Proc.devRef .tc r) _ _ (untouched_flat hr),
    Pipeline.withArrays_of_ne _ c (V0 m c) _ r hw]
  rfl

/-- The five arguments end as launched: the node features and the weights are input arrays of the pipeline, the
    three edge tables bypass it and no line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((arrays_eq m c 0).trans rfl)),
     ((h c).1 1).trans (((dats m 0 c).arrAt_in 1 rfl _).trans ((arrays_eq m c 1).trans rfl)),
     ((h c).2 main_arg2 (Pipeline.mem_restRefs_of main_arg2 (by decide) (by decide))).trans
       (kept m c (by decide) (by decide)),
     ((h c).2 main_arg3 (Pipeline.mem_restRefs_of main_arg3 (by decide) (by decide))).trans
       (kept m c (by decide) (by decide)),
     ((h c).2 main_arg4 (Pipeline.mem_restRefs_of main_arg4 (by decide) (by decide))).trans
       (kept m c (by decide) (by decide))⟩) (run_around m ρ)

end Cert.KernelIdeal.Run

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KIdealProduct.lean ====
/-
  The kernel's result array, as one function of the node features and the weights.

  Point `t` of the 25 x 3 grid is row tile `t / 3` of hop `t % 3`. There the body multiplies rows
  4000·(t/3) … 4000·(t/3)+3999 of the features X by the weight matrix of the hop and writes the 4000 x 128 product
  back as rows of plane `t % 3` of the result. At the ideal instance the conversions to bf16 are the identity and the
  product into a zero accumulator is the plain sum, so the entry (r, q) of what point `t` writes back is
      Σ_k X[4000·(t/3) + r, k] · W[t % 3, k, q],
  the entry (t % 3, 4000·(t/3) + r, q) of the one array
      proj X W [h, n, q] = Σ_{k < 256} X[n, k] · W[h, k, q].
  The 75 blocks tile the result array, so after the run it IS `proj X W`.
-/
import proofs.«105398_j601295422043_1_alg».proof.Proof.KIdealRun
import proofs.«105398_j601295422043_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Product

open Cert.KernelIdeal Cert.KernelIdeal.Gen Cert.KernelIdeal.Lines Cert.KernelIdeal.Body
open Idealize.ShloMosaic Idealize.ShloMosaic.TcCoe Idealize.ShloMosaic.ValueIdx
open Idealize.SL Idealize.SL.Sem
open Idealize.ShloMosaic.Pipeline (Dat)
open Cert.LibMatmulPlain

/-- Entry (h, n, q) of the three projected tables stacked: row `n` of the features against column `q` of hop `h`'s
    weights. -/
def projAt (X : S100000x256.Idx → EReal) (W : S3x256x128.Idx → EReal) (h : Fin 3) (n : Fin 100000) (q : Fin 128) : EReal :=
  ∑ k : Fin 256, X (ix2 n k) * W (ix3 h k q)

/-- The stacked tables as one array. -/
def proj (X : S100000x256.Idx → EReal) (W : S3x256x128.Idx → EReal) : S3x100000x128.Idx → EReal :=
  fun i => projAt X W (i 0) (i 1) (i 2)

theorem proj_apply (X : S100000x256.Idx → EReal) (W : S3x256x128.Idx → EReal) (h : Fin 3) (n : Fin 100000) (q : Fin 128) :
    proj X W (ix3 h n q) = ∑ k : Fin 256, X (ix2 n k) * W (ix3 h k q) := rfl

/-- What the body stores, at row `r` and column `q` of its tile: the row of the feature tile against the column of
    the weight matrix (the conversions to bf16 and the two re-layouts change nothing at the ideal instance). -/
theorem stored_entry (x : FVec Ideal S4000x256 .f32) (w : FVec Ideal S1x256x128 .f32) (r : Fin 4000) (q : Fin 128) :
    k0_pay1 (F := Ideal) x w (ix3 (0 : Fin 1) r q) = ∑ k : Fin 256, x (ix2 r k) * w (ix3 (0 : Fin 1) k q) := by
  unfold k0_pay1
  refine (shapeCast_ab_1ab_apply _ _ 0 r q).trans ?_
  refine (matmul_plain_zero_apply _ rfl none _ _ r q).trans ?_
  refine Finset.sum_congr rfl fun k _ => ?_
  exact congrArg (x (ix2 r k) * ·) (shapeCast_1ab_ab_apply w _ k q)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three index maps over the grid: the feature tile follows the result's row tile, the weight matrix the
    result's hop, every other block coordinate is zero, and the result's block coordinates stay in range. -/
theorem index_facts : ∀ t : Fin cfg0.N,
    win0_0.index t (0 : Fin 2) = win0_2.index t (1 : Fin 3) ∧ win0_0.index t (1 : Fin 2) = 0
    ∧ win0_1.index t (0 : Fin 3) = win0_2.index t (0 : Fin 3) ∧ win0_1.index t (1 : Fin 3) = 0
    ∧ win0_1.index t (2 : Fin 3) = 0 ∧ win0_2.index t (2 : Fin 3) = 0
    ∧ win0_2.index t (0 : Fin 3) < 3 ∧ win0_2.index t (1 : Fin 3) < 25 :=
  (by decide +kernel : ∀ t : Fin grid0.N, _)

/-- Every (hop, row tile) pair is some point's block. -/
theorem index_onto : ∀ (h : Fin 3) (b : Fin 25), ∃ t : Fin cfg0.N, win0_2.index t = ![h.val, b.val, 0] :=
  (by decide +kernel : ∀ (h : Fin 3) (b : Fin 25), ∃ t : Fin grid0.N, win0_2.index t = ![h.val, b.val, 0])

/-- A tile's row against a weight matrix's column, with the tile's and the matrix's entries named by where they sit
    in the whole arrays: when row `r` of the tile is row `n` of the features, the matrix is hop `h`'s, and the tile's
    entry (r, q) is the result's entry (h, n, q), the tile's sum is the entry of `proj`. -/
theorem tile_sum (X : S100000x256.Idx → EReal) (W : S3x256x128.Idx → EReal)
    (ex : S4000x256.Idx → S100000x256.Idx) (ew : S1x256x128.Idx → S3x256x128.Idx) (ey : S1x4000x128.Idx → S3x100000x128.Idx)
    (h : Fin 3) (n : Fin 100000) (r : Fin 4000) (q : Fin 128)
    (hy : ey (ix3 (0 : Fin 1) r q) = ix3 h n q) (hx : ∀ k : Fin 256, ex (ix2 r k) = ix2 n k)
    (hw : ∀ k : Fin 256, ew (ix3 (0 : Fin 1) k q) = ix3 h k q) :
    ∑ k : Fin 256, X (ex (ix2 r k)) * W (ew (ix3 (0 : Fin 1) k q)) = proj X W (ey (ix3 (0 : Fin 1) r q)) := by
  rw [hy, proj_apply]
  exact Finset.sum_congr rfl fun k _ => by rw [hx, hw]

variable (m : (ℓ : Loc nD τ sig) → Buf (Elt Ideal) ℓ)

/-- What point `t` writes back is block `t` of `proj` of the features and the weights as launched. -/
theorem flushed_eq (c : Dev nD) (t : Fin cfg0.N) :
    (dats m 0 c).flushed 2 t
      = ((cfg0.win 2).blk t).view.read (Elt Ideal) (proj (V m c main_arg0) (V m c main_arg1)) := by
  show (cfg0.win 2).cut (grid0.coords t) ((dats m 0 c).after 2 t) = _
  rw [after_y]
  unfold stored
  rw [View.canon_unit_zero zeros3]
  simp only [View.ld_unit_zero (S := S4000x256) zeros2, View.ld_unit_zero (S := S1x256x128) zeros3]
  obtain ⟨e0, e1, e2, e3, e4, e5, e6, e7⟩ := index_facts t
  funext j
  obtain ⟨u, r, q, rfl⟩ : ∃ (u : Fin 1) (r : Fin 4000) (q : Fin 128), j = ix3 u r q := ⟨j 0, j 1, j 2, eq_ix3 j⟩
  obtain rfl : u = 0 := Subsingleton.elim _ _
  refine (stored_entry (blockAt m c 0 t) (blockAt m c 1 t) r q).trans ?_
  have hr : r.val < 4000 := r.isLt
  have hy : ((cfg0.win 2).blk t).view.emb (ix3 (0 : Fin 1) r q)
      = ix3 (⟨win0_2.index t (0 : Fin 3), e6⟩ : Fin 3) (⟨win0_2.index t (1 : Fin 3) * 4000 + r.val, by omega⟩ : Fin 100000) q := by
    funext a; apply Fin.ext
    match a with
    | ⟨0, _⟩ => show win0_2.index t (0 : Fin 3) * 1 + 1 * 0 = win0_2.index t (0 : Fin 3); omega
    | ⟨1, _⟩ => show win0_2.index t (1 : Fin 3) * 4000 + 1 * r.val = win0_2.index t (1 : Fin 3) * 4000 + r.val; omega
    | ⟨2, _⟩ => show win0_2.index t (2 : Fin 3) * 128 + 1 * q.val = q.val; omega
  have hx : ∀ k : Fin 256, ((cfg0.win 0).blk t).view.emb (ix2 r k)
      = ix2 (⟨win0_2.index t (1 : Fin 3) * 4000 + r.val, by omega⟩ : Fin 100000) k := by
    intro k; funext a; apply Fin.ext
    match a with
    | ⟨0, _⟩ => show win0_0.index t (0 : Fin 2) * 4000 + 1 * r.val = win0_2.index t (1 : Fin 3) * 4000 + r.val; omega
    | ⟨1, _⟩ => show win0_0.index t (1 : Fin 2) * 256 + 1 * k.val = k.val; omega
  have hw : ∀ k : Fin 256, ((cfg0.win 1).blk t).view.emb (ix3 (0 : Fin 1) k q)
      = ix3 (⟨win0_2.index t (0 : Fin 3), e6⟩ : Fin 3) k q := by
    intro k; funext a; apply Fin.ext
    match a with
    | ⟨0, _⟩ => show win0_1.index t (0 : Fin 3) * 1 + 1 * 0 = win0_2.index t (0 : Fin 3); omega
    | ⟨1, _⟩ => show win0_1.index t (1 : Fin 3) * 256 + 1 * k.val = k.val; omega
    | ⟨2, _⟩ => show win0_1.index t (2 : Fin 3) * 128 + 1 * q.val = q.val; omega
  exact tile_sum (V m c main_arg0) (V m c main_arg1) (fun y => ((cfg0.win 0).blk t).view.emb y)
    (fun y => ((cfg0.win 1).blk t).view.emb y) (fun y => ((cfg0.win 2).blk t).view.emb y) _ _ r q hy hx hw

/-- An index of the result array lies in point `t`'s block iff each coordinate lies in the block's range. -/
theorem mem_block (t : Fin cfg0.N) (i : S3x100000x128.Idx) :
    i ∈ ((cfg0.win 2).blk t).view.set ↔ ∀ a : Fin 3, win0_2.index t a * S1x4000x128.size a ≤ (i a).val
      ∧ (i a).val < win0_2.index t a * S1x4000x128.size a + S1x4000x128.size a := by
  show i ∈ ((View.whole main_v0).slice (win0_2.rect t)).set ↔ _
  rw [View.set_slice_whole, Rect.mem_set_unit]
  exact Iff.rfl

/-- The 75 blocks cover the result array: entry (h, n, q) lies in the block of hop `h`, row tile `n / 4000`. -/
theorem covered (i : S3x100000x128.Idx) :
    ∃ t : Fin cfg0.N, (cfg0.win 2).flush t = true ∧ i ∈ ((cfg0.win 2).blk t).view.set := by
  have h0 : (i 0).val < 3 := (i 0).isLt
  have h1 : (i 1).val < 100000 := (i 1).isLt
  have h2 : (i 2).val < 128 := (i 2).isLt
  obtain ⟨t, ht⟩ := index_onto ⟨(i 0).val, h0⟩ ⟨(i 1).val / 4000, by omega⟩
  have q0 : win0_2.index t (0 : Fin 3) = (i 0).val := congrFun ht 0
  have q1 : win0_2.index t (1 : Fin 3) = (i 1).val / 4000 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4000 ≤ (i 1).val ∧ (i 1).val < win0_2.index t (1 : Fin 3) * 4000 + 4000; omega
  | ⟨2, _⟩ => show win0_2.index t (2 : Fin 3) * 128 ≤ (i 2).val ∧ (i 2).val < win0_2.index t (2 : Fin 3) * 128 + 128; omega

/-- The result array after the run: the three projected tables. -/
theorem final (c : Dev nD) :
    (dats m 0 c).arrAt 2 cfg0.N = proj (m ((c : Thread nD τ).loc main_arg0)) (m ((c : Thread nD τ).loc main_arg1)) :=
  (dats m 0 c).arrAt_eq_of_cover 2 (proj (V m c main_arg0) (V m c main_arg1)) (fun t _ => flushed_eq m c t) covered

end Cert.KernelIdeal.Product

end
-- ==== Proof.Layer.lean ====
/-
  The layer after the projections, as ONE function.

  Both programs end the same way. Given the three projected tables `h₀ h₁ h₂` (one 100000 x 128 table per hop) and
  the three edge tables (sources, destinations, values, one row of 1600000 edges per hop), hop `k` contributes

      out_k[n, :] = sum over the edges e with dst_k[e] = n of  vals_k[e] * h_k[src_k[e], :]

  — the source index wrapped once if negative, the gather clamped, the scatter-add dropping a destination outside
  the table, all exactly as the host operations define them —, and the result is max(out_0 + out_1 + out_2, 0), the
  sum started from a zero table. The kernel and the reference differ only in how the `h_k` are produced, so the
  whole comparison reduces to the three tables being equal.
-/
import proofs.«105398_j601295422043_1_alg».proof.ReferenceIdeal

noncomputable section

namespace Cert.ReferenceIdeal.Layer

open Cert.ReferenceIdeal Idealize.ShloMosaic
open Facts₀

variable {F : FTy → Type} [FloatOps F] [Facts]

/-- Row `k` of an edge table [3, 1600000], as a vector of 1600000 entries. -/
def edgeRow {α : Type} (k : Nat) (hs : S3x1600000.Slices ![k, 0] S1x1600000) (a : S3x1600000.Idx → α) : S1600000.Idx → α :=
  shapeCast _ (extractStridedSlice S1x1600000 ![k, 0] a hs) shapeCasts_S1x1600000_S1600000

/-- The zero table the sums start from. -/
def zeros : FVec F S100000x128 .f32 :=
  broadcastInDim S100000x128 ![] bcast_S_S100000x128 (constant S_ .f32 0x00000000#32)

/-- A source index below zero is wrapped once by the number of nodes. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- One hop: the rows of `h` at the sources, each scaled by its edge's value, added up at the destinations. -/
def hop (h : FVec F S100000x128 .f32) (src dst : IVec S1600000 32) (vals : FVec F S1600000 .f32) : FVec F S100000x128 .f32 :=
  Host.scatterAdd scatter_S100000x128_S1600000x1_S1600000x128_1_0_0_1 zeros
    (broadcastInDim S1600000x1 ![0] bcast_S1600000_S1600000x1_0 dst)
    (mulf (broadcastInDim S1600000x128 ![0, 1] bcast_S1600000x1_S1600000x128_0_1
            (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0 (wrapped src))))

/-- The layer: the three hops summed from zero, then the maximum with zero. -/
def layer (h0 h1 h2 : FVec F S100000x128 .f32) (src dst : IVec S3x1600000 32) (vals : FVec F S3x1600000 .f32) :
    FVec F S100000x128 .f32 :=
  maximumf
    (addf (addf (addf zeros
      (hop h0 (edgeRow 0 slices_S3x1600000_S1x1600000_0_0 src) (edgeRow 0 slices_S3x1600000_S1x1600000_0_0 dst)
        (edgeRow 0 slices_S3x1600000_S1x1600000_0_0 vals)))
      (hop h1 (edgeRow 1 slices_S3x1600000_S1x1600000_1_0 src) (edgeRow 1 slices_S3x1600000_S1x1600000_1_0 dst)
        (edgeRow 1 slices_S3x1600000_S1x1600000_1_0 vals)))
      (hop h2 (edgeRow 2 slices_S3x1600000_S1x1600000_2_0 src) (edgeRow 2 slices_S3x1600000_S1x1600000_2_0 dst)
        (edgeRow 2 slices_S3x1600000_S1x1600000_2_0 vals)))
    zeros

end Cert.ReferenceIdeal.Layer

end
-- ==== Proof.KIdealRead.lean ====
/-
  The lines after the region, read as the layer.

  From ANY contents `E` of the device's buffers at the region's exit, the eighty lines leave in the result buffer
  the layer of ../Layer applied to: the three planes of the kernel's result array as `E` holds it (plane `k` cut out
  by a slice and a reshape), and the three edge tables as `E` holds them. Each line's result is its operation of its
  operands' results, so this is a computation over the list of lines; nothing is assumed of `E`.
-/
import proofs.«105398_j601295422043_1_alg».proof.Proof.KIdealLines
import proofs.«105398_j601295422043_1_alg».proof.Proof.Layer
import Idealize.ShloMosaic.Lib.StableHlo.Run

set_option maxRecDepth 16384

noncomputable section

namespace Cert.KernelIdeal.Read

open Cert.KernelIdeal Cert.KernelIdeal.Gen Cert.KernelIdeal.Lines
open Idealize.ShloMosaic Idealize.ShloMosaic.TcCoe Idealize.ShloMosaic.StableHlo
open Idealize.SL Idealize.SL.Sem

variable {F : FTy → Type} [FloatOps F]

/-- Plane `k` of a stack of three tables [3, 100000, 128], as a table [100000, 128]. -/
def plane (k : Nat) (hs : S3x100000x128.Slices ![k, 0, 0] S1x100000x128) (Y : FVec F S3x100000x128 .f32) :
    FVec F S100000x128 .f32 :=
  shapeCast _ (extractStridedSlice S1x100000x128 ![k, 0, 0] Y hs) Facts₀.shapeCasts_S1x100000x128_S100000x128

set_option maxHeartbeats 40000000 in
/-- The result buffer after the lines, from exit contents `E`. -/
theorem lines_value [Cert.ReferenceIdeal.Facts] (E : Valuation τ sig (Elt F)) :
    StableHlo.after ((tail : List (List (HloOp τ sig (Elt F)))).flatten) E (Proc.devRef .tc main_v68)
      = Cert.ReferenceIdeal.Layer.layer (F := F)
          (plane 0 Facts₀.slices_S3x100000x128_S1x100000x128_0_0_0 (E (Proc.devRef .tc main_v0)))
          (plane 1 Facts₀.slices_S3x100000x128_S1x100000x128_1_0_0 (E (Proc.devRef .tc main_v0)))
          (plane 2 Facts₀.slices_S3x100000x128_S1x100000x128_2_0_0 (E (Proc.devRef .tc main_v0)))
          (E (Proc.devRef .tc main_arg2)) (E (Proc.devRef .tc main_arg3)) (E (Proc.devRef .tc main_arg4)) := by
  simp only [tail, hostOps1, hostOps1_1, List.flatten_cons, List.flatten_nil, List.append_nil, List.cons_append, List.nil_append]
  after_results_simp
  rfl

end Cert.KernelIdeal.Read

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«105398_j601295422043_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibPlane.lean ====
/-
  One plane of a stack of matrices, read at an entry.

  A stack [n, a, b] cut to its slab k … k+1 along the leading axis is a [1, a, b] array whose entry (0, p, q) is the
  stack's entry (k, p, q); dropping the unit axis gives the plane as an [a, b] matrix with the same entries. This is
  how `x[k]` of a stacked array is lowered (a slice, then a reshape). Generic in n, a, b and the element type.
-/
import Idealize.ShloMosaic.Lib.Pipeline.Value
import Idealize.ShloMosaic.Lib.ValueIdx
import Idealize.ShloMosaic.Lib.ValueLayout

noncomputable section

namespace Cert.LibPlane

open Idealize.ShloMosaic Idealize.ShloMosaic.ValueIdx

variable {α : Type} {n a b : ℕ}

/-- The slab `k … k+1` of a stack, at (u, p, q), is the stack at (k, p, q). The plane's number is passed as an
    element `kk` of `Fin n` with its value. -/
theorem slab_apply (k : ℕ) (X : (⟨3, ![n, a, b]⟩ : Shape).Idx → α)
    (hs : (⟨3, ![n, a, b]⟩ : Shape).Slices ![k, 0, 0] ⟨3, ![1, a, b]⟩) (kk : Fin n) (hk : kk.val = k)
    (u : Fin 1) (p : Fin a) (q : Fin b) :
    extractStridedSlice ⟨3, ![1, a, b]⟩ ![k, 0, 0] X hs (ix3 u p q) = X (ix3 kk p q) := by
  have hu : u.val = 0 := by omega
  exact extractStridedSlice_apply _ _ _ _ _ (fun ax => by
    match ax with
    | ⟨0, _⟩ => show kk.val = k + u.val; omega
    | ⟨1, _⟩ => exact (Nat.zero_add _).symm
    | ⟨2, _⟩ => exact (Nat.zero_add _).symm)

/-- Plane `k` of a stack as a matrix — the slab with its unit axis dropped — at (p, q) is the stack at (k, p, q). -/
theorem plane_apply (k : ℕ) (X : (⟨3, ![n, a, b]⟩ : Shape).Idx → α)
    (hs : (⟨3, ![n, a, b]⟩ : Shape).Slices ![k, 0, 0] ⟨3, ![1, a, b]⟩)
    (hc : (⟨3, ![1, a, b]⟩ : Shape).ShapeCasts ⟨2, ![a, b]⟩) (kk : Fin n) (hk : kk.val = k) (p : Fin a) (q : Fin b) :
    shapeCast ⟨2, ![a, b]⟩ (extractStridedSlice ⟨3, ![1, a, b]⟩ ![k, 0, 0] X hs) hc (ix2 p q) = X (ix3 kk p q) :=
  (shapeCast_1ab_ab_apply _ hc p q).trans (slab_apply k X hs kk hk 0 p q)

end Cert.LibPlane

end
-- ==== Proof.Bridge.lean ====
/-
  The two programs compute one function of the five arguments.

  `result X W src dst vals` is the layer applied to the three planes of `proj X W` and the edge tables.
  • The kernel: after the launch its result array is `proj X W` (the 75 written-back tiles), the lines after the
    region read its three planes, and the edge tables bypass the region untouched; so its result buffer ends at
    `result` of the arguments as launched.
  • The reference: for each hop it multiplies the features by the hop's weight matrix on the host; at the ideal
    instance that product is, entry by entry, the same sum over the 256 input features as the plane of `proj X W`.
    The rest of the reference is the same layer, so its result is `result` of its arguments.
  No law of the extended reals beyond equality of the sums term by term is used, so no finiteness is needed.
-/
import proofs.«105398_j601295422043_1_alg».proof.Proof.KIdealProduct
import proofs.«105398_j601295422043_1_alg».proof.Proof.KIdealRead
import proofs.«105398_j601295422043_1_alg».proof.Proof.LibDotGeneralPlain
import proofs.«105398_j601295422043_1_alg».proof.Proof.LibPlane
import proofs.«105398_j601295422043_1_alg».proof.Proof.Gen.ReferenceIdeal.Run

set_option maxRecDepth 16384

noncomputable section

open scoped BigOperators

namespace Cert.Bridge

open Idealize.ShloMosaic Idealize.ShloMosaic.TcCoe Idealize.ShloMosaic.ValueIdx
open Idealize.SL Idealize.SL.Sem
open Cert.KernelIdeal.Product (proj proj_apply)
open Cert.KernelIdeal.Read (plane)
open Cert.ReferenceIdeal.Layer (layer)
open Cert.LibDotGeneralPlain Cert.LibPlane

/-- The common result: the layer over the three planes of the projected tables. -/
def result (X : Cert.KernelIdeal.S100000x256.Idx → EReal) (W : Cert.KernelIdeal.S3x256x128.Idx → EReal)
    (src dst : IVec Cert.KernelIdeal.S3x1600000 32) (vals : FVec Ideal Cert.KernelIdeal.S3x1600000 .f32) :
    FVec Ideal Cert.KernelIdeal.S100000x128 .f32 :=
  layer (F := Ideal)
    (plane 0 Cert.KernelIdeal.Facts₀.slices_S3x100000x128_S1x100000x128_0_0_0 (proj X W))
    (plane 1 Cert.KernelIdeal.Facts₀.slices_S3x100000x128_S1x100000x128_1_0_0 (proj X W))
    (plane 2 Cert.KernelIdeal.Facts₀.slices_S3x100000x128_S1x100000x128_2_0_0 (proj X W))
    src dst vals

/-! ## The reference -/

/-- The host's product of the features with hop `k`'s weight matrix is plane `k` of the projected tables. -/
theorem host_table (k : ℕ) (kk : Fin 3) (hk : kk.val = k)
    (hsW : Cert.ReferenceIdeal.S3x256x128.Slices ![k, 0, 0] Cert.ReferenceIdeal.S1x256x128)
    (hsY : Cert.KernelIdeal.S3x100000x128.Slices ![k, 0, 0] Cert.KernelIdeal.S1x100000x128)
    (X : Cert.KernelIdeal.S100000x256.Idx → EReal) (W : Cert.KernelIdeal.S3x256x128.Idx → EReal) :
    Host.dotGeneral (F := Ideal) (φ₁ := .f32) (φ₂ := .f32) Cert.ReferenceIdeal.dot_S100000x256_S256x128_S100000x128_1_0_0_1_n_n none X
        (shapeCast _ (extractStridedSlice Cert.ReferenceIdeal.S1x256x128 ![k, 0, 0] W hsW)
          Cert.ReferenceIdeal.Facts₀.shapeCasts_S1x256x128_S256x128)
      = plane (F := Ideal) k hsY (proj X W) := by
  funext i
  obtain ⟨n, q, rfl⟩ : ∃ (n : Fin 100000) (q : Fin 128), i = ix2 n q := ⟨i 0, i 1, eq_ix2 i⟩
  refine (dotGeneral_plain_apply _ rfl none _ _ _ n q).trans ?_
  unfold Cert.KernelIdeal.Read.plane
  refine Eq.trans ?_ (plane_apply k (proj X W) hsY _ kk hk n q).symm
  rw [proj_apply]
  exact Finset.sum_congr rfl fun j _ => congrArg (X (ix2 n j) * ·) (plane_apply k W hsW _ kk hk j q)

/-- The reference's result is `result` of its arguments. -/
theorem reference_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v70 (F := Ideal) m' c
      = result (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := by
  unfold result
  rw [← host_table 0 0 rfl Cert.ReferenceIdeal.Facts₀.slices_S3x256x128_S1x256x128_0_0_0,
    ← host_table 1 1 rfl Cert.ReferenceIdeal.Facts₀.slices_S3x256x128_S1x256x128_1_0_0,
    ← host_table 2 2 rfl Cert.ReferenceIdeal.Facts₀.slices_S3x256x128_S1x256x128_2_0_0]
  rfl

/-! ## The kernel -/

open Cert.KernelIdeal Cert.KernelIdeal.Gen Cert.KernelIdeal.Lines Cert.KernelIdeal.Body Cert.KernelIdeal.Run in
/-- The kernel's result buffer after the lines is `result` of the arguments as launched. -/
theorem kernel_value (m : (ℓ : Loc Cert.KernelIdeal.nD Cert.KernelIdeal.τ Cert.KernelIdeal.sig) → Buf (Elt Ideal) ℓ)
    (c : Dev Cert.KernelIdeal.nD) :
    Pipeline.afterTail₀ cfgs (dats m) 0 (V0 m) tail c main_v68
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have key : ∀ (E : Valuation τ sig (Elt Ideal)) (Y : S3x100000x128.Idx → EReal)
      (a2 a3 : IVec S3x1600000 32) (a4 : FVec Ideal S3x1600000 .f32),
      E (Proc.devRef .tc main_v0) = Y → E (Proc.devRef .tc main_arg2) = a2 → E (Proc.devRef .tc main_arg3) = a3
      → E (Proc.devRef .tc main_arg4) = a4 →
      StableHlo.after ((tail : List (List (HloOp τ sig (Elt Ideal)))).flatten) E (Proc.devRef .tc main_v68)
        = layer (F := Ideal) (plane 0 Facts₀.slices_S3x100000x128_S1x100000x128_0_0_0 Y)
            (plane 1 Facts₀.slices_S3x100000x128_S1x100000x128_1_0_0 Y)
            (plane 2 Facts₀.slices_S3x100000x128_S1x100000x128_2_0_0 Y) a2 a3 a4 := by
    intro E Y a2 a3 a4 h0 h2 h3 h4
    rw [Cert.KernelIdeal.Read.lines_value E, h0, h2, h3, h4]
  unfold Pipeline.afterTail₀
  exact key _ _ _ _ _
    ((Pipeline.withArrays_arr spec0 launch0.win.arr_inj c _ _ 2).trans (Cert.KernelIdeal.Product.final m c))
    (Pipeline.withArrays_of_ne _ c (V0 m c) _ main_arg2 (by decide))
    (Pipeline.withArrays_of_ne _ c (V0 m c) _ main_arg3 (by decide))
    (Pipeline.withArrays_of_ne _ c (V0 m c) _ main_arg4 (by decide))

open Cert.KernelIdeal Cert.KernelIdeal.Gen Cert.KernelIdeal.Lines Cert.KernelIdeal.Body Cert.KernelIdeal.Run in
/-- The kernel's run: the result at `result` of the arguments, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (defs (F := Ideal)) (onTc (τ := τ) (main (F := Ideal))) ⟨m, fun _ => 0, ρ⟩ (fun r => ∀ c : Dev nD,
      r.2.mem ((c.tc : Thread nD τ).loc main_v68)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v68 (Pipeline.mem_restRefs_of main_v68 (by decide) (by decide))).trans (kernel_value m c),
     ((h c).1 0).trans (((dats m 0 c).arrAt_in 0 rfl _).trans ((arrays_eq m c 0).trans rfl)),
     ((h c).1 1).trans (((dats m 0 c).arrAt_in 1 rfl _).trans ((arrays_eq m c 1).trans rfl)),
     ((h c).2 main_arg2 (Pipeline.mem_restRefs_of main_arg2 (by decide) (by decide))).trans
       (kept m c (by decide) (by decide)),
     ((h c).2 main_arg3 (Pipeline.mem_restRefs_of main_arg3 (by decide) (by decide))).trans
       (kept m c (by decide) (by decide)),
     ((h c).2 main_arg4 (Pipeline.mem_restRefs_of main_arg4 (by decide) (by decide))).trans
       (kept m c (by decide) (by decide))⟩) (run_around m ρ)

end Cert.Bridge

end
-- ==== Proof.lean ====
/-
  A three-hop graph layer: the dense projections on the matrix unit against the same products on the host.

  Both programs compute, for node features X [100000, 256], per-hop weights W [3, 256, 128] and per-hop edge lists
  (source, destination, value; 1600000 edges each),

      out = max( Σ_{hop} Σ_{edges e of the hop}  vals[e] · (X · W[hop])[src[e], :]  placed at row dst[e] ,  0 ).

  The kernel computes the three products X · W[hop] in ONE launch over a 25 x 3 grid — row tile by row tile, hop by
  hop, each tile a 4000 x 256 by 256 x 128 product with its operands cast to bf16 and accumulated in f32 from zero —
  into one array [3, 100000, 128], then runs the gather / scale / scatter-add / sum / max on the host over the three
  planes of that array. The reference computes each product on the host and runs the same host operations. Over the
  extended reals a cast is the identity and both products are the plain sum over the 256 input features, so the
  three planes of the kernel's array are the reference's three products, entry by entry, and the rest is one and the
  same function of them (Proof/Layer, Proof/Bridge).

  Each program's run — it terminates, nothing faults, the arguments end unchanged — is derived from the launch
  theorem for a region continued by host lines: Proof/K*Lines (what the eighty lines touch), Proof/K*Body (one grid
  point), Proof/K*Run (the run and the arguments unchanged), once at each instance.
  The ideal pass rewrote nothing, so the idealization's conjunct is trivial.
-/
import proofs.«105398_j601295422043_1_alg».proof.Defs
import proofs.«105398_j601295422043_1_alg».proof.Proof.Gen.Kernel
import proofs.«105398_j601295422043_1_alg».proof.Proof.Gen.KernelIdeal
import proofs.«105398_j601295422043_1_alg».proof.Proof.Gen.ReferenceIdeal
import proofs.«105398_j601295422043_1_alg».proof.Proof.Gen.Pre_finite_inputs
import proofs.«105398_j601295422043_1_alg».proof.Proof.Gen.ReferenceIdeal.Run
import proofs.«105398_j601295422043_1_alg».proof.Proof.KBitsRun
import proofs.«105398_j601295422043_1_alg».proof.Proof.KIdealRun
import proofs.«105398_j601295422043_1_alg».proof.Proof.Bridge

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Run.frame m ρ

/-- So does its reading over the extended reals. -/
theorem frame_kernel_ideal : Cert.frame_KernelIdeal := fun m ρ _ => Cert.KernelIdeal.Run.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten by the idealization. -/
theorem preserves : Cert.preserves_Kernel_KernelIdeal := trivial

/-- From memories agreeing on the five arguments both programs end with the result buffer at `Bridge.result` of
    those arguments. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.Bridge.reference_value, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
